-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : IVec S1600000 32) (main_arg3 : IVec S1600000 32) (main_arg4 : FVec F S1600000 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S1600000 : Shape := ⟨1, ![1600000]⟩
abbrev S128x128 : Shape := ⟨2, ![128, 128]⟩
abbrev S100000x128 : Shape := ⟨2, ![100000, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 28
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x128, .f32⟩
  | .hbm, ⟨6, _⟩ => ⟨S100000x128, .bf16⟩
  | .hbm, ⟨7, _⟩ => ⟨S100000x128, .bf16⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .bf16⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S10000x128.size a ≤ S100000x128.size a
  hwx1_2 : ∀ i : grid1.Coords, EltTy.bits .bf16 = 32 ∨ (Rect.block (s := S100000x128) S10000x128.size (cc1_transform_3 i) (hinb1_2 i)).WholeWords (EltTy.packing .bf16)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_3 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x128, .f32⟩
  | .hbm, ⟨6, _⟩ => ⟨S100000x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel's run with its last buffer contents named.

  @main is five segments: the first matrix product's region, the copy of its result into the second product's
  output buffer, the second region, the gather / scale / scatter-add stretch, and the rectifier's three operations.
  The segment kit threads the buffer contents through them: at the return every unscoped buffer `b` of core `c` holds
  `W5 m ρ c b`, the fold of the two host stretches over what the second region leaves (`W3`).  This module states
  that once, for any post-condition that follows from "every unscoped buffer holds `W5`", and instantiates it at the
  result buffer together with the six arguments.
-/
import proofs.«128382_j72945724555832_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, faultless, in a state satisfying any `Q` that holds of every
    state whose unscoped buffers are at the last boundary's contents `W5`. -/
theorem run_of (Q : _ → Prop)
    (hQ : ∀ s, (∀ c : Dev nD, ∀ b ∈ Pipeline.ucRefs τ sig, s.mem (((c : Thread nD τ)).1, b) = W5 m ρ c b) → Q s) :
    θ_run defs (onTc (τ := τ) (main (F := F))) ⟨m, fun _ => 0, ρ⟩ (fun r => Q r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => hQ s h)

/-- The run with the result named: @main's result buffer ends at `W5`'s contents there, the arguments as launched. -/
theorem run_result : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ (fun s => ∀ c : Dev nD,
      s.mem ((c.tc : Thread nD τ).loc main_v16) = W5 m ρ c (Proc.devRef .tc main_v16)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)) fun s h c =>
    ⟨h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩

end Cert.KernelIdeal.Run

end
-- ==== Proof.KProduct.lean ====
/-
  One block of the dense transform, entry by entry.

  Both regions run the same body on a block of 10000 rows: the block `x` of the left array and the whole weight
  matrix `w` go through a matrix product into a zero accumulator, so on the extended reals (where the changes of
  float format are the identity and the zero word is 0) entry (r, c) of what the body stores is Σ_k x(r,k)·w(k,c).
  The reference multiplies the two row-stacked arrays `u ++ v` by `w` in one product; its entry (R, c) is
  Σ_k (u ++ v)(R,k)·w(k,c), and (u ++ v)(R,k) is u(R,k) below row 50000 and v(R − 50000,k) from there on.
  So the body's block at block row `q` of `u` is rows 10000·q … of the reference's product, and its block at block
  row `q` of `v` is rows 10000·(q+5) … of it: the same finite sum, term by term, with no law of the extended
  reals needed beyond 0 + s = s.
-/
import proofs.«128382_j72945724555832_2_alg».proof.Proof.Gen.KernelIdeal.Skeleton
import proofs.«128382_j72945724555832_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.SL.Sem

/-- The node features: the reference's one product of the row-stacked arrays with the weights. -/
abbrev feat (u v : S50000x128.Idx → EReal) (w : S128x128.Idx → EReal) : S100000x128.Idx → EReal :=
  Cert.ReferenceIdeal.Read.val_main_v1 (F := Ideal) u v w

/-- Row `r` of a block, column `k`. -/
abbrev lrow (j : S10000x128.Idx) (k : Fin 128) : S10000x128.Idx := fun a => match a with
  | ⟨0, _⟩ => ⟨(j 0).val, (j 0).isLt⟩
  | ⟨1, _⟩ => ⟨k.val, k.isLt⟩
/-- Row `k` of the weights, the block entry's column. -/
abbrev rcol (j : S10000x128.Idx) (k : Fin 128) : S128x128.Idx := fun a => match a with
  | ⟨0, _⟩ => ⟨k.val, k.isLt⟩
  | ⟨1, _⟩ => ⟨(j 1).val, (j 1).isLt⟩

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at an entry: the row of the block against the column of the weights. -/
theorem pay_apply (x0 : Vec Ideal S10000x128 .f32) (x1 : Vec Ideal S128x128 .f32) (j : S10000x128.Idx) :
    k0_pay1 (F := Ideal) x0 x1 j = ∑ k : Fin 128, x0 (lrow j k) * x1 (rcol j k) := by
  unfold k0_pay1
  show FloatOps.matmul dot_S10000x128_S128x128_S10000x128_1_0_0_1_n_n none (truncf (F := Ideal) .bf16 x0 bitsLt_bf16_f32) (truncf (F := Ideal) .bf16 x1 bitsLt_bf16_f32) (constant (F := Ideal) S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = lrow j k := funext fun a => Fin.ext (by
    match a with
    | ⟨0, _⟩ => exact lhs_0 _ _
    | ⟨1, _⟩ => exact (lhs_1 _ _).trans hk)
  have er : dot_S10000x128_S128x128_S10000x128_1_0_0_1_n_n.rhsIdx j ((ValueIdx.contrEquiv1 dot_S10000x128_S128x128_S10000x128_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-- The second region's body stores the same function of its blocks. -/
theorem pay1_eq {F : FTy → Type} [FloatOps F] : k1_pay1 (F := F) = k0_pay1 (F := F) := rfl

/-- A block of rows of `u` (block row `q`) times the weights is rows 10000·q … of the features. -/
theorem block_upper (u v : S50000x128.Idx → EReal) (w : S128x128.Idx → EReal)
    (x0 : S10000x128.Idx → EReal) (x1 : S128x128.Idx → EReal) (q : Nat) (hq : q < 5)
    (hx0 : ∀ (y : S10000x128.Idx) (i' : S50000x128.Idx), (i' 0).val = q * 10000 + (y 0).val → (i' 1).val = (y 1).val → x0 y = u i')
    (hx1 : x1 = w)
    (j : S10000x128.Idx) (i : S100000x128.Idx) (hi0 : (i 0).val = q * 10000 + (j 0).val) (hi1 : (i 1).val = (j 1).val) :
    k0_pay1 (F := Ideal) x0 x1 j = feat u v w i := by
  subst hx1
  rw [pay_apply]
  refine Eq.trans ?_ (Cert.ReferenceIdeal.Read.val_main_v1_apply u v x1 i).symm
  refine Finset.sum_congr rfl fun k _ => ?_
  have hj0 : (j 0).val < 10000 := (j 0).isLt
  let i' : S50000x128.Idx := fun a => match a with
    | ⟨0, _⟩ => ⟨q * 10000 + (j 0).val, by show _ < 50000; omega⟩
    | ⟨1, _⟩ => ⟨k.val, k.isLt⟩
  have e1 : Cert.ReferenceIdeal.Read.val_main_v0 (F := Ideal) u v (Cert.ReferenceIdeal.Read.lidx_main_v1 i k) = x0 (lrow j k) := by
    rw [hx0 (lrow j k) i' rfl rfl]
    unfold Cert.ReferenceIdeal.Read.val_main_v0
    exact concatenate_pair_apply_left 0 u v _ (Cert.ReferenceIdeal.Read.lidx_main_v1 i k) rfl i' (fun b => by
      match b with
      | ⟨0, _⟩ => exact hi0.symm
      | ⟨1, _⟩ => rfl)
  have e2 : Cert.ReferenceIdeal.Read.ridx_main_v1 i k = rcol j k := funext fun a => Fin.ext (by
    match a with
    | ⟨0, _⟩ => rfl
    | ⟨1, _⟩ => exact hi1)
  rw [e1, e2]

/-- A block of rows of `v` (block row `q`) times the weights is rows 10000·(q+5) … of the features. -/
theorem block_lower (u v : S50000x128.Idx → EReal) (w : S128x128.Idx → EReal)
    (x0 : S10000x128.Idx → EReal) (x1 : S128x128.Idx → EReal) (q : Nat) (hq : q < 5)
    (hx0 : ∀ (y : S10000x128.Idx) (i' : S50000x128.Idx), (i' 0).val = q * 10000 + (y 0).val → (i' 1).val = (y 1).val → x0 y = v i')
    (hx1 : x1 = w)
    (j : S10000x128.Idx) (i : S100000x128.Idx) (hi0 : (i 0).val = (q + 5) * 10000 + (j 0).val) (hi1 : (i 1).val = (j 1).val) :
    k0_pay1 (F := Ideal) x0 x1 j = feat u v w i := by
  subst hx1
  rw [pay_apply]
  refine Eq.trans ?_ (Cert.ReferenceIdeal.Read.val_main_v1_apply u v x1 i).symm
  refine Finset.sum_congr rfl fun k _ => ?_
  have hj0 : (j 0).val < 10000 := (j 0).isLt
  let i' : S50000x128.Idx := fun a => match a with
    | ⟨0, _⟩ => ⟨q * 10000 + (j 0).val, by show _ < 50000; omega⟩
    | ⟨1, _⟩ => ⟨k.val, k.isLt⟩
  have e1 : Cert.ReferenceIdeal.Read.val_main_v0 (F := Ideal) u v (Cert.ReferenceIdeal.Read.lidx_main_v1 i k) = x0 (lrow j k) := by
    rw [hx0 (lrow j k) i' rfl rfl]
    unfold Cert.ReferenceIdeal.Read.val_main_v0
    exact concatenate_pair_apply_right 0 u v _ (Cert.ReferenceIdeal.Read.lidx_main_v1 i k) rfl rfl i' (fun b hb => by
      match b with
      | ⟨0, _⟩ => exact absurd rfl hb
      | ⟨1, _⟩ => rfl) (by show q * 10000 + (j 0).val + 50000 = (i 0).val; omega)
  have e2 : Cert.ReferenceIdeal.Read.ridx_main_v1 i k = rcol j k := funext fun a => Fin.ext (by
    match a with
    | ⟨0, _⟩ => rfl
    | ⟨1, _⟩ => exact hi1)
  rw [e1, e2]

end Cert.KernelIdeal.Product

end
-- ==== Proof.KBlocks.lean ====
/-
  The two regions' output arrays after their runs.

  Region 0 walks five grid points; point `t` reads rows 10000·t … of the first argument and the whole weight matrix,
  and writes its product back as rows 10000·t … of a 100000-row buffer: after it, every row below 50000 of that
  buffer holds the features' row (the rows from 50000 on keep whatever the buffer held).  Region 1 does the same from
  the second argument into rows 10000·(t+5) … of its own output buffer, which entered the region as a copy of region
  0's: after it, the rows from 50000 on hold the features' rows and the rows below 50000 are as the region found them.
  Here each statement is made at a PARAMETER `V` for the buffer contents on entry, with what `V` holds at the two
  arrays the region reads as hypotheses.
-/
import proofs.«128382_j72945724555832_2_alg».proof.Proof.Gen.KernelIdeal.Frame
import proofs.«128382_j72945724555832_2_alg».proof.Proof.KProduct

set_option maxRecDepth 16384

noncomputable section

namespace Cert.KernelIdeal.Blocks

open Cert.KernelIdeal Cert.KernelIdeal.Gen Cert.KernelIdeal.Product
open Idealize.ShloMosaic Idealize.ShloMosaic.TcCoe Idealize.ShloMosaic.Tactic
open Idealize.SL Idealize.SL.Sem
open Idealize.ShloMosaic.Pipeline (Dat Cfg Window)

theorem hz2 : (![0, 0] : Fin 2 → Nat) = fun _ => 0 := by
  funext a; match a with | ⟨0, _⟩ => rfl | ⟨1, _⟩ => rfl

section AnyF
variable {F : FTy → Type} [FloatOps F]

/-- Region 0's body loads both blocks whole and stores one whole block: what it leaves is the payload of the blocks. -/
theorem out0_eq (x0 : Vec F S10000x128 .f32) (x1 : Vec F S128x128 .f32) : out0_2 (F := F) x0 x1 = k0_pay1 x0 x1 := by
  unfold out0_2
  rw [View.canon_unit_zero hz2]
  simp only [View.ld_unit_zero (S := S10000x128) hz2, View.ld_unit_zero (S := S128x128) hz2]

/-- Region 1's body likewise, whatever staging memrefs the pipeline hands it. -/
theorem out1_eq (c : Dev nD) (i : grid1.Coords) (arg1 : Memref sig .tc .vmem S10000x128 .f32) (harg1 : arg1.IsWhole) (arg2 : Memref sig .tc .vmem S128x128 .f32) (harg2 : arg2.IsWhole) (arg4 : Memref sig .tc .vmem S10000x128 .bf16) (harg4 : arg4.IsWhole)
    (x0 : Vec F S10000x128 .f32) (x1 : Vec F S128x128 .f32) :
    out1_A_2 (F := F) c i arg1 harg1 arg2 harg2 arg4 harg4 x0 x1 = k0_pay1 x0 x1 := by
  unfold out1_A_2
  rw [View.read_writes_eq_canon _ _ _ (cover1_A_2 c i arg1 harg1 arg2 harg2 arg4 harg4 x0 x1)]
  unfold kernelRun1_A; dsimp only; sl_unfold_words
  rw [View.canon_unit_zero hz2]
  simp only [View.readAt_eq_ld, harg1.read_unread, harg2.read_unread, View.ld_unit_zero (S := S10000x128) hz2, View.ld_unit_zero (S := S128x128) hz2]
  rfl

end AnyF

/-! ## The index maps over the grids -/

/-- Region 0: the left window and the output window are at block row `t`, the weights at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- Region 1: the left window at block row `t`, the output window at block row `t + 5`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val + 5 ∧ win1_2.index t (1 : Fin 2) = 0 ∧ t.val < 5 :=
  (by decide +kernel : ∀ t : Fin grid1.N, _)

/-- Every block row below 5 is some point's in region 0, -/
theorem onto0 : ∀ q : Fin 5, ∃ t : Fin cfg0.N, win0_2.index t (0 : Fin 2) = q.val ∧ win0_2.index t (1 : Fin 2) = 0 :=
  (by decide +kernel : ∀ q : Fin 5, ∃ t : Fin grid0.N, win0_2.index t (0 : Fin 2) = q.val ∧ win0_2.index t (1 : Fin 2) = 0)
/-- and every block row from 5 to 9 some point's in region 1. -/
theorem onto1 : ∀ q : Fin 5, ∃ t : Fin cfg1.N, win1_2.index t (0 : Fin 2) = q.val + 5 ∧ win1_2.index t (1 : Fin 2) = 0 :=
  (by decide +kernel : ∀ q : Fin 5, ∃ t : Fin grid1.N, win1_2.index t (0 : Fin 2) = q.val + 5 ∧ win1_2.index t (1 : Fin 2) = 0)

/-- An index is in point `t`'s output block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v1).slice (win1_2.rect t)).set ↔ _
  rw [View.set_slice_whole, Rect.mem_set_unit]
  exact Iff.rfl

/-- A row below 50000 is in the output block of region 0's point `row / 10000`. -/
theorem upper_covered (i : S100000x128.Idx) (h : (i 0).val < 50000) :
    ∃ t : Fin cfg0.N, (cfg0.win 2).flush t = true ∧ i ∈ ((cfg0.win 2).blk t).view.set := by
  have hi1 : (i 1).val < 128 := (i 1).isLt
  obtain ⟨t, q0, q1⟩ := onto0 ⟨(i 0).val / 10000, by omega⟩
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; simp only at q0; omega
  | ⟨1, _⟩ => show win0_2.index t (1 : Fin 2) * 128 ≤ (i 1).val ∧ (i 1).val < win0_2.index t (1 : Fin 2) * 128 + 128; omega

/-- A row from 50000 on is in the output block of region 1's point `row / 10000 − 5`. -/
theorem lower_covered (i : S100000x128.Idx) (h : 50000 ≤ (i 0).val) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, q0, q1⟩ := onto1 ⟨(i 0).val / 10000 - 5, by omega⟩
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; simp only at q0; omega
  | ⟨1, _⟩ => show win1_2.index t (1 : Fin 2) * 128 ≤ (i 1).val ∧ (i 1).val < win1_2.index t (1 : Fin 2) * 128 + 128; omega

/-- No output block of region 1 reaches a row below 50000. -/
theorem upper_not_in_blk1 (t : Fin cfg1.N) (i : S100000x128.Idx) (h : (i 0).val < 50000) :
    i ∉ ((cfg1.win 2).blk t).view.set := by
  intro hi
  rw [mem_blk1] at hi
  have b0 : win1_2.index t (0 : Fin 2) * 10000 ≤ (i 0).val ∧ (i 0).val < win1_2.index t (0 : Fin 2) * 10000 + 10000 := hi 0
  obtain ⟨-, -, -, -, e4, -, -⟩ := idx1 t
  omega

/-! ## The blocks the bodies read, and what the points write back -/

section AtV
variable (V : (c : Dev nD) → (b : Ref sig .tc) → Buf (Elt Ideal) ((c : Thread nD τ).loc b))

/-- Region 0, left window at point `t`: entry (r, k) of the block is entry (10000·t + r, k) of the first argument. -/
theorem iblk0_0_read (c : Dev nD) (t : Fin cfg0.N) (y : S10000x128.Idx) (i' : S50000x128.Idx)
    (h0 : (i' 0).val = t.val * 10000 + (y 0).val) (h1 : (i' 1).val = (y 1).val) :
    iblk0 V c 0 t y = V c main_arg0 i' := by
  obtain ⟨e0, e1, -⟩ := idx0 t
  show V c main_arg0 (((cfg0.win 0).blk t).view.emb y) = V c main_arg0 i'
  refine congrArg _ (funext fun a => Fin.ext ?_)
  match a with
  | ⟨0, _⟩ => show win0_0.index t (0 : Fin 2) * 10000 + 1 * (y 0).val = (i' 0).val; omega
  | ⟨1, _⟩ => show win0_0.index t (1 : Fin 2) * 128 + 1 * (y 1).val = (i' 1).val; omega

/-- Region 0, the weights' window: the whole matrix at every point. -/
theorem iblk0_1_whole (c : Dev nD) (t : Fin cfg0.N) : (iblk0 V c 1 t : S128x128.Idx → EReal) = V c main_arg5 := by
  obtain ⟨-, -, e2, e3, -⟩ := idx0 t
  funext y
  show V c main_arg5 (((cfg0.win 1).blk t).view.emb y) = V c main_arg5 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Region 1, left window at point `t`: entry (r, k) of the block is entry (10000·t + r, k) of the second argument. -/
theorem iblk1_0_read (c : Dev nD) (t : Fin cfg1.N) (y : S10000x128.Idx) (i' : S50000x128.Idx)
    (h0 : (i' 0).val = t.val * 10000 + (y 0).val) (h1 : (i' 1).val = (y 1).val) :
    iblk1 V c 0 t y = V c main_arg1 i' := by
  obtain ⟨e0, e1, -⟩ := idx1 t
  show V c main_arg1 (((cfg1.win 0).blk t).view.emb y) = V c main_arg1 i'
  refine congrArg _ (funext fun a => Fin.ext ?_)
  match a with
  | ⟨0, _⟩ => show win1_0.index t (0 : Fin 2) * 10000 + 1 * (y 0).val = (i' 0).val; omega
  | ⟨1, _⟩ => show win1_0.index t (1 : Fin 2) * 128 + 1 * (y 1).val = (i' 1).val; omega

/-- Region 1, the weights' window: the whole matrix at every point. -/
theorem iblk1_1_whole (c : Dev nD) (t : Fin cfg1.N) : (iblk1 V c 1 t : S128x128.Idx → EReal) = V c main_arg5 := by
  obtain ⟨-, -, e2, e3, -⟩ := idx1 t
  funext y
  show V c main_arg5 (((cfg1.win 1).blk t).view.emb y) = V c main_arg5 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- WHAT REGION 0's POINT `t` WRITES BACK is block `t` of the features. -/
theorem flushed0_eq (c : Dev nD) (u v : S50000x128.Idx → EReal) (w : S128x128.Idx → EReal)
    (hu : V c main_arg0 = u) (hw : V c main_arg5 = w) (t : Fin cfg0.N) :
    (dat0 (F := Ideal) V c).flushed 2 t = ((cfg0.win 2).blk t).view.read (Elt Ideal) (feat u v w) := by
  show (cfg0.win 2).cut (grid0.coords t) ((dat0 V c).after 2 t) = _
  rw [after0_2, out0_eq]
  obtain ⟨e0, e1, e2, e3, e4, e5, e6⟩ := idx0 t
  funext j
  show k0_pay1 (F := Ideal) (iblk0 V c 0 t) (iblk0 V c 1 t) j = feat u v w (((cfg0.win 2).blk t).view.emb j)
  refine block_upper u v w (iblk0 V c 0 t) (iblk0 V c 1 t) t.val e6
    (fun y i' h0 h1 => (iblk0_0_read V c t y i' h0 h1).trans (congrFun hu i')) ((iblk0_1_whole V c t).trans hw) j
    (((cfg0.win 2).blk t).view.emb j) ?_ ?_
  · show win0_2.index t (0 : Fin 2) * 10000 + 1 * (j 0).val = t.val * 10000 + (j 0).val; omega
  · show win0_2.index t (1 : Fin 2) * 128 + 1 * (j 1).val = (j 1).val; omega

/-- WHAT REGION 1's POINT `t` WRITES BACK is block `t + 5` of the features. -/
theorem flushed1_eq (c : Dev nD) (u v : S50000x128.Idx → EReal) (w : S128x128.Idx → EReal)
    (hv : V c main_arg1 = v) (hw : V c main_arg5 = w) (t : Fin cfg1.N) :
    (dat1 (F := Ideal) V c).flushed 2 t = ((cfg1.win 2).blk t).view.read (Elt Ideal) (feat u v w) := by
  show (cfg1.win 2).cut (grid1.coords t) ((dat1 V c).after 2 t) = _
  rw [after1_2]
  unfold outsAt1
  rw [out1_eq]
  obtain ⟨e0, e1, e2, e3, e4, e5, e6⟩ := idx1 t
  funext j
  show k0_pay1 (F := Ideal) (iblk1 V c 0 t) (iblk1 V c 1 t) j = feat u v w (((cfg1.win 2).blk t).view.emb j)
  refine block_lower u v w (iblk1 V c 0 t) (iblk1 V c 1 t) t.val e6
    (fun y i' h0 h1 => (iblk1_0_read V c t y i' h0 h1).trans (congrFun hv i')) ((iblk1_1_whole V c t).trans hw) j
    (((cfg1.win 2).blk t).view.emb j) ?_ ?_
  · show win1_2.index t (0 : Fin 2) * 10000 + 1 * (j 0).val = (t.val + 5) * 10000 + (j 0).val; omega
  · show win1_2.index t (1 : Fin 2) * 128 + 1 * (j 1).val = (j 1).val; omega

/-! ## The arrays after the runs -/

/-- After region 0 a row below 50000 of its output array is the features' row. -/
theorem region0_upper (c : Dev nD) (u v : S50000x128.Idx → EReal) (w : S128x128.Idx → EReal)
    (hu : V c main_arg0 = u) (hw : V c main_arg5 = w) (i : S100000x128.Idx) (h : (i 0).val < 50000) :
    (dat0 (F := Ideal) V c).arrAt 2 cfg0.N i = feat u v w i := by
  obtain ⟨t, hf, hi⟩ := upper_covered i h
  exact (dat0 V c).arrAt_apply_of_mem 2 (feat u v w) (fun t _ => flushed0_eq V c u v w hu hw t) cfg0.N t i t.isLt hf hi

/-- After region 1 a row from 50000 on of its output array is the features' row, -/
theorem region1_lower (c : Dev nD) (u v : S50000x128.Idx → EReal) (w : S128x128.Idx → EReal)
    (hv : V c main_arg1 = v) (hw : V c main_arg5 = w) (i : S100000x128.Idx) (h : 50000 ≤ (i 0).val) :
    (dat1 (F := Ideal) V c).arrAt 2 cfg1.N i = feat u v w i := by
  obtain ⟨t, hf, hi⟩ := lower_covered i h
  exact (dat1 V c).arrAt_apply_of_mem 2 (feat u v w) (fun t _ => flushed1_eq V c u v w hv hw t) cfg1.N t i t.isLt hf hi

/-- and a row below 50000 is as the region found it. -/
theorem region1_upper (c : Dev nD) (i : S100000x128.Idx) (h : (i 0).val < 50000) :
    (dat1 (F := Ideal) V c).arrAt 2 cfg1.N i = V c main_v1 i :=
  ((dat1 V c).arrAt_apply_of_forall_not_mem 2 cfg1.N i fun t _ _ => upper_not_in_blk1 t i h).trans
    (congrFun (A_eq1 V c 2) i)

end AtV

end Cert.KernelIdeal.Blocks

end
-- ==== Proof.KTail.lean ====
/-
  What follows the two regions, and what the second region is entered with.

  After the second region @main gathers rows of the node features by the column indices (a negative index wrapped
  by the row count first), widens them, scales row `e` by the edge value `e`, adds row `e` into the output row the row
  index `e` names (from a zero array), and takes the maximum with zero.  All of it is one function `tail` of the
  node-feature array and the three edge arrays; the contents of @main's result buffer at the return are `tail` of
  what the second region left.  Between the regions the first region's output array is copied into the second's
  output buffer, and no other buffer changes: the second region finds the arguments as launched and its output
  buffer at what the first region left.
-/
import proofs.«128382_j72945724555832_2_alg».proof.Proof.Gen.KernelIdeal.Frame
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]

/-- Gather, widen, scale, scatter-add from zero, rectify: @main's operations after the second region, as one function
    of the node features `nf`, the row indices `a2`, the column indices `a3` and the edge values `a4`. -/
def tail (nf : (⟨S100000x128, .bf16⟩ : BufTy).Contents (Elt F)) (a2 a3 : (⟨S1600000, .i32⟩ : BufTy).Contents (Elt F))
    (a4 : (⟨S1600000, .f32⟩ : BufTy).Contents (Elt F)) : (⟨S100000x128, .f32⟩ : BufTy).Contents (Elt F) :=
  maximumf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 a2)
      (mulf
        (broadcastInDim S1600000x128 ![0, 1] bcast_S1600000x1_S1600000x128_0_1
          (broadcastInDim S1600000x1 ![0] bcast_S1600000_S1600000x1_0 a4))
        (extf .f32
          (Host.gather gather_S100000x128_S1600000x1_S1600000x128_1_0_n_n_0_1_1128 nf
            (broadcastInDim S1600000x1 ![0] bcast_S1600000_S1600000x1_0
              (select
                (cmpi .slt a3 (broadcastInDim S1600000 ![] bcast_S_S1600000 (constantI S_ 32 0#32)))
                (addi a3 (broadcastInDim S1600000 ![] bcast_S_S1600000 (constantI S_ 32 100000#32)))
                a3)))
          bitsLt_bf16_f32)))
    (broadcastInDim S100000x128 ![] bcast_S_S100000x128 (constant (F := F) S_ .f32 0x00000000#32))

variable (m : (ℓ : Loc nD τ sig) → Buf (Elt F) ℓ) (ρ : Dev nD → PrngReg)

/-- The result buffer at the return: the tail of what the second region left. -/
theorem W5_result (c : Dev nD) :
    W5 m ρ c (Proc.devRef .tc main_v16)
      = tail (W3 m ρ c (Proc.devRef .tc main_v1)) (W3 m ρ c (Proc.devRef .tc main_arg2)) (W3 m ρ c (Proc.devRef .tc main_arg3))
          (W3 m ρ c (Proc.devRef .tc main_arg4)) := by
  show StableHlo.after hostOps2_1 (StableHlo.after hostOps2 (W3 m ρ c)) (Proc.devRef .tc main_v16) = _
  after_results
  rfl

/-- The second region's output array, when the region is left, is what its write-backs made of it. -/
theorem W3_v1 (c : Dev nD) : W3 m ρ c (Proc.devRef .tc main_v1) = (dat1 (V2 m ρ) c).arrAt 2 cfg1.N :=
  W3_arr m ρ c 2

/-- The three edge arrays are no window of either region and no host operation writes them. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by
          show StableHlo.after hostOps1 (W1 m ρ c) (Proc.devRef .tc main_arg2) = _; after_results
    _ = W0 m ρ c (Proc.devRef .tc main_arg2) := W1_of_ne m ρ c main_arg2 (by decide)
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by
          show StableHlo.after hostOps1 (W1 m ρ c) (Proc.devRef .tc main_arg3) = _; after_results
    _ = W0 m ρ c (Proc.devRef .tc main_arg3) := W1_of_ne m ρ c main_arg3 (by decide)
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := by
          show StableHlo.after hostOps1 (W1 m ρ c) (Proc.devRef .tc main_arg4) = _; after_results
    _ = W0 m ρ c (Proc.devRef .tc main_arg4) := W1_of_ne m ρ c main_arg4 (by decide)
    _ = m ((c : Thread nD τ).loc main_arg4) := rfl

/-- The second region finds the second argument as launched (the first region does not touch it), -/
theorem V2_arg1 (c : Dev nD) : V2 m ρ c main_arg1 = m ((c : Thread nD τ).loc main_arg1) :=
  calc W2 m ρ c (Proc.devRef .tc main_arg1)
    _ = W1 m ρ c (Proc.devRef .tc main_arg1) := by
          show StableHlo.after hostOps1 (W1 m ρ c) (Proc.devRef .tc main_arg1) = _; after_results
    _ = W0 m ρ c (Proc.devRef .tc main_arg1) := W1_of_ne m ρ c main_arg1 (by decide)
    _ = m ((c : Thread nD τ).loc main_arg1) := rfl
/-- the weights as launched (the first region only reads them), -/
theorem V2_arg5 (c : Dev nD) : V2 m ρ c main_arg5 = m ((c : Thread nD τ).loc main_arg5) :=
  calc W2 m ρ c (Proc.devRef .tc main_arg5)
    _ = W1 m ρ c (Proc.devRef .tc main_arg5) := by
          show StableHlo.after hostOps1 (W1 m ρ c) (Proc.devRef .tc main_arg5) = _; after_results
    _ = W0 m ρ c (Proc.devRef .tc main_arg5) := (W1_arr m ρ c 1).trans (((dat0 (V0 m ρ) c).arrAt_in 1 rfl _).trans (A_eq0 (V0 m ρ) c 1))
    _ = m ((c : Thread nD τ).loc main_arg5) := rfl
/-- and its own output buffer at the copy of what the first region's write-backs left. -/
theorem V2_v1 (c : Dev nD) : V2 m ρ c main_v1 = (dat0 (V0 m ρ) c).arrAt 2 cfg0.N :=
  calc W2 m ρ c (Proc.devRef .tc main_v1)
    _ = W1 m ρ c (Proc.devRef .tc main_v0) := by
          show StableHlo.after hostOps1 (W1 m ρ c) (Proc.devRef .tc main_v1) = _; after_results; rfl
    _ = (dat0 (V0 m ρ) c).arrAt 2 cfg0.N := W1_arr m ρ c 2

end Cert.KernelIdeal.Tail

end
-- ==== Proof.KFinal.lean ====
/-
  The idealized kernel's result as one function of the arguments.

  The buffer the gather reads is the second region's output array.  Row R of it: from 50000 on it was written by the
  second region, as the features' row R; below 50000 the second region left it as it found it, namely as the copy of
  the first region's output array, whose rows below 50000 the first region wrote as the features' rows.  So the whole
  array is the features — the row-stacked arguments times the weights —, and the result is `tail` of them.
-/
import proofs.«128382_j72945724555832_2_alg».proof.Proof.KRun
import proofs.«128382_j72945724555832_2_alg».proof.Proof.KBlocks
import proofs.«128382_j72945724555832_2_alg».proof.Proof.KTail

set_option maxRecDepth 16384

noncomputable section

namespace Cert.KernelIdeal.Final

open Cert.KernelIdeal Cert.KernelIdeal.Gen Cert.KernelIdeal.Product
open Idealize.ShloMosaic Idealize.ShloMosaic.TcCoe
open Idealize.SL Idealize.SL.Sem

variable (m : (ℓ : Loc nD τ sig) → Buf (Elt Ideal) ℓ) (ρ : Dev nD → PrngReg)

/-- What the second region leaves in its output array: the node features of the launch arguments. -/
theorem features (c : Dev nD) :
    (W3 m ρ c (Proc.devRef .tc main_v1) : S100000x128.Idx → EReal)
      = feat (m ((c : Thread nD τ).loc main_arg0)) (m ((c : Thread nD τ).loc main_arg1)) (m ((c : Thread nD τ).loc main_arg5)) := by
  rw [Tail.W3_v1 m ρ c]
  funext i
  by_cases h : (i 0).val < 50000
  · rw [Blocks.region1_upper (V2 m ρ) c i h, Tail.V2_v1 m ρ c]
    exact Blocks.region0_upper (V0 m ρ) c (m ((c : Thread nD τ).loc main_arg0)) (m ((c : Thread nD τ).loc main_arg1))
      (m ((c : Thread nD τ).loc main_arg5)) rfl rfl i h
  · exact Blocks.region1_lower (V2 m ρ) c (m ((c : Thread nD τ).loc main_arg0)) (m ((c : Thread nD τ).loc main_arg1))
      (m ((c : Thread nD τ).loc main_arg5)) (Tail.V2_arg1 m ρ c) (Tail.V2_arg5 m ρ c) i (by omega)

/-- The result buffer at the return. -/
theorem result_eq (c : Dev nD) :
    W5 m ρ c (Proc.devRef .tc main_v16)
      = Tail.tail (F := Ideal)
          (feat (m ((c : Thread nD τ).loc main_arg0)) (m ((c : Thread nD τ).loc main_arg1)) (m ((c : Thread nD τ).loc main_arg5)))
          (m ((c : Thread nD τ).loc main_arg2)) (m ((c : Thread nD τ).loc main_arg3)) (m ((c : Thread nD τ).loc main_arg4)) := by
  rw [Tail.W5_result m ρ c, features m ρ c, Tail.W3_arg2 m ρ c, Tail.W3_arg3 m ρ c, Tail.W3_arg4 m ρ c]

/-- Every weakly fair execution of the idealized kernel terminates with its result at `tail` of the features of the
    launch arguments, the arguments unchanged. -/
theorem run : θ_run defs (onTc (τ := τ) (main (F := Ideal))) ⟨m, fun _ => 0, ρ⟩ (fun r => ∀ c : Dev nD,
      r.2.mem ((c.tc : Thread nD τ).loc main_v16)
        = Tail.tail (F := Ideal)
            (feat (m ((c : Thread nD τ).loc main_arg0)) (m ((c : Thread nD τ).loc main_arg1)) (m ((c : Thread nD τ).loc main_arg5)))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Run.run_result m ρ)

end Cert.KernelIdeal.Final

end
-- ==== Proof.Bridge.lean ====
/-
  The two programs' last steps are one function.

  On the extended reals widening a float is the identity, so the kernel's gather / widen / scale / scatter-add /
  rectify of the node features is, operation for operation, the reference's gather / scale / scatter-add / rectify of
  its own product; the two programs' dimension records for the gather and the scatter have the same fields.
-/
import proofs.«128382_j72945724555832_2_alg».proof.Proof.KTail
import proofs.«128382_j72945724555832_2_alg».proof.Proof.KProduct

set_option maxRecDepth 16384

noncomputable section

namespace Cert.Bridge

open Cert.ReferenceIdeal Cert.ReferenceIdeal.Gen
open Idealize.ShloMosaic Idealize.ShloMosaic.TcCoe Idealize.SL.Sem

/-- The kernel's tail of the features is the reference's composed result term. -/
theorem tail_ref (a0 a1 : FVec Ideal S50000x128 .f32) (a2 a3 : IVec S1600000 32) (a4 : FVec Ideal S1600000 .f32)
    (a5 : FVec Ideal S128x128 .f32) :
    Cert.KernelIdeal.Tail.tail (F := Ideal) (Cert.KernelIdeal.Product.feat a0 a1 a5) a2 a3 a4
      = maximumf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a2) (mulf (broadcastInDim S1600000x128 ![0, 1] bcast_S1600000x1_S1600000x128_0_1 (broadcastInDim S1600000x1 ![0] bcast_S1600000_S1600000x1_0 a4)) (Host.gather gather_S100000x128_S1600000x1_S1600000x128_1_0_n_n_0_1_1128 (Host.dotGeneral dot_S100000x128_S128x128_S100000x128_1_0_0_1_n_n none (concatenate S100000x128 0 [⟨S50000x128, a0⟩, ⟨S50000x128, a1⟩] concatenates_S50000x128_S50000x128_S100000x128_d0) a5) (broadcastInDim S1600000x1 ![0] bcast_S1600000_S1600000x1_0 (select (cmpi .slt a3 (broadcastInDim S1600000 ![] bcast_S_S1600000 (constantI S_ 32 0#32))) (addi a3 (broadcastInDim S1600000 ![] bcast_S_S1600000 (constantI S_ 32 100000#32))) a3))))) (broadcastInDim S100000x128 ![] bcast_S_S100000x128 (constant (F := Ideal) S_ .f32 0x00000000#32)) := by
  unfold Cert.KernelIdeal.Tail.tail
  rfl

end Cert.Bridge

end
-- ==== Proof.lean ====
/-
  A graph-convolution layer: out = relu(segment_sum(vals · (cat(u, v) · W)[cols], rows)).

  The kernel computes the dense transform cat(u, v) · W in two launches of one matrix-product body, each over five
  blocks of 10000 rows: the first writes u · W into rows 0 … 49999 of a 100000-row buffer, the second, into a copy of
  that buffer, v · W into rows 50000 … 99999; the reference stacks u on v and multiplies once.  At the ideal instance
  the float-format changes around the product are the identity and the product into a zero accumulator is the plain
  sum Σ_k x(r,k)·W(k,c), so row R of the kernel's buffer is row R of the reference's product — through u below 50000,
  through v from there on — with no appeal to finiteness: the sums have the same terms in the same order.  The
  gather, the scaling by the edge values, the scatter-add from zero and the rectifier that follow are the same
  operations in both programs (the kernel's extra widening is the identity), applied to that one array.

  Frames: the kernel's two (word-level and idealized) are the generated several-region frames; the reference's is its
  generated run with the result dropped.  The ideal pass rewrote nothing, so `preserves` is trivial.  The value claim:
  the kernel's run with its result named (KRun, over the generated segments), the result as `tail` of the node
  features (KTail, KBlocks, KProduct, KFinal), and the reference's generated run, whose result term is that same
  function (Bridge).
-/
import proofs.«128382_j72945724555832_2_alg».proof.Defs
import proofs.«128382_j72945724555832_2_alg».proof.Proof.Gen.Kernel
import proofs.«128382_j72945724555832_2_alg».proof.Proof.Gen.Kernel.Skeleton
import proofs.«128382_j72945724555832_2_alg».proof.Proof.Gen.Kernel.Launch
import proofs.«128382_j72945724555832_2_alg».proof.Proof.Gen.Kernel.Points
import proofs.«128382_j72945724555832_2_alg».proof.Proof.Gen.Kernel.Frame
import proofs.«128382_j72945724555832_2_alg».proof.Proof.Gen.KernelIdeal
import proofs.«128382_j72945724555832_2_alg».proof.Proof.Gen.KernelIdeal.Skeleton
import proofs.«128382_j72945724555832_2_alg».proof.Proof.Gen.KernelIdeal.Launch
import proofs.«128382_j72945724555832_2_alg».proof.Proof.Gen.KernelIdeal.Points
import proofs.«128382_j72945724555832_2_alg».proof.Proof.Gen.KernelIdeal.Frame
import proofs.«128382_j72945724555832_2_alg».proof.Proof.Gen.ReferenceIdeal
import proofs.«128382_j72945724555832_2_alg».proof.Proof.Gen.Pre_finite_inputs
import proofs.«128382_j72945724555832_2_alg».proof.Proof.Gen.ReferenceIdeal.Run
import proofs.«128382_j72945724555832_2_alg».proof.Proof.Gen.ReferenceIdeal.Read
import proofs.«128382_j72945724555832_2_alg».proof.Proof.KFinal
import proofs.«128382_j72945724555832_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `tail` of the node features of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.Bridge.tail_ref _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
